-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S42 : Shape := ⟨1, ![42]⟩
abbrev S42x8192 : Shape := ⟨2, ![42, 8192]⟩
abbrev S8192 : Shape := ⟨1, ![8192]⟩
abbrev S8192x8192 : Shape := ⟨2, ![8192, 8192]⟩
abbrev S8192x8 : Shape := ⟨2, ![8192, 8]⟩
abbrev S8 : Shape := ⟨1, ![8]⟩
abbrev S_ : Shape := ⟨0, ![]⟩

class Facts : Prop where
  bcast_S_S42 : S_.BroadcastsInDim S42 (![] : Fin 0 → Fin S42.rank)
  reducesTo_S42_S_d0 : S42.ReducesTo [0] S_
  h_S_ : 0 < S_.numel
  bcast_S_S42x8192 : S_.BroadcastsInDim S42x8192 (![] : Fin 0 → Fin S42x8192.rank)
  reducesTo_S42x8192_S_d0_1 : S42x8192.ReducesTo [0, 1] S_
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S8192x8 : S_.BroadcastsInDim S8192x8 (![] : Fin 0 → Fin S8192x8.rank)
  reducesTo_S8192x8_S_d0_1 : S8192x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8192 .f32) (main_arg5 : FVec F S8192x8 .f32) (main_arg6 : FVec F S8 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x8 .f32 := Host.absf main_arg5
  let main_cst_8 : FVec F S_ .f32 := constant S_ .f32 0x7F800000#32
  let main_v25 : FVec F S8192x8 .f32 := broadcastInDim S8192x8 ![] bcast_S_S8192x8 main_cst_8
  let main_v26 : IVec S8192x8 1 := cmpf .olt main_v24 main_v25
  let main_c_9 : IVec S_ 1 := constantI S_ 1 1#1
  let main_v27 : IVec S_ 1 := (fun x v => Host.reduce IntOp.andi x v reducesTo_S8192x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S42 .f32) (main_arg1 : FVec F S42x8192 .f32) (main_arg2 : FVec F S8192 .f32) (main_arg3 : FVec F S8192x8192 .f32) (main_arg4 : FVec F S8192 .f32) (main_arg5 : FVec F S8192x8 .f32) (main_arg6 : FVec F S8 .f32) : IVec S_ 1 :=
  let main_v0 : FVec F S42 .f32 := Host.absf main_arg0
  let main_cst : FVec F S_ .f32 := constant S_ .f32 0x7F800000#32
  let main_v1 : FVec F S42 .f32 := broadcastInDim S42 ![] bcast_S_S42 main_cst
  let main_v2 : IVec S42 1 := cmpf .olt main_v0 main_v1
  let main_c : IVec S_ 1 := constantI S_ 1 1#1
  let main_v3 : IVec S_ 1 := (fun x v => Host.reduce IntOp.andi x v reducesTo_S42_S_d0 h_S_) main_v2 main_c
  let main_v4 : FVec F S42x8192 .f32 := Host.absf main_arg1
  let main_cst_0 : FVec F S_ .f32 := constant S_ .f32 0x7F800000#32
  let main_v5 : FVec F S42x8192 .f32 := broadcastInDim S42x8192 ![] bcast_S_S42x8192 main_cst_0
  let main_v6 : IVec S42x8192 1 := cmpf .olt main_v4 main_v5
  let main_c_1 : IVec S_ 1 := constantI S_ 1 1#1
  let main_v7 : IVec S_ 1 := (fun x v => Host.reduce IntOp.andi x v reducesTo_S42x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_v13 main_v16
-- ==== Kernel.lean ====
abbrev S42 : Shape := ⟨1, ![42]⟩
abbrev S42x8192 : Shape := ⟨2, ![42, 8192]⟩
abbrev S8192 : Shape := ⟨1, ![8192]⟩
abbrev S8192x8192 : Shape := ⟨2, ![8192, 8192]⟩
abbrev S8192x8 : Shape := ⟨2, ![8192, 8]⟩
abbrev S8 : Shape := ⟨1, ![8]⟩
abbrev S1x42 : Shape := ⟨2, ![1, 42]⟩
abbrev S1x8192 : Shape := ⟨2, ![1, 8192]⟩
abbrev S1x8 : Shape := ⟨2, ![1, 8]⟩
abbrev S8192x256 : Shape := ⟨2, ![8192, 256]⟩
abbrev S1x256 : Shape := ⟨2, ![1, 256]⟩
abbrev S1x1 : Shape := ⟨2, ![1, 1]⟩
abbrev S1 : Shape := ⟨1, ![1]⟩
abbrev S7 : Shape := ⟨1, ![7]⟩
abbrev S_ : Shape := ⟨0, ![]⟩
abbrev S1x7 : Shape := ⟨2, ![1, 7]⟩
abbrev S7x1 : Shape := ⟨2, ![7, 1]⟩

abbrev nBuf : Space → Nat
  | .hbm => 44
  | .vmem => 15
  | .smem => 0
  | _ => 0

abbrev bufTy : (tb : Table) → Fin (tcTables nBuf tb) → BufTy
  | .hbm, ⟨0, _⟩ => ⟨S42, .f32⟩
  | .hbm, ⟨1, _⟩ => ⟨S42x8192, .f32⟩
  | .hbm, ⟨2, _⟩ => ⟨S8192, .f32⟩
  | .hbm, ⟨3, _⟩ => ⟨S8192x8192, .f32⟩
  | .hbm, ⟨4, _⟩ => ⟨S8192, .f32⟩
  | .hbm, ⟨5, _⟩ => ⟨S8192x8, .f32⟩
  | .hbm, ⟨6, _⟩ => ⟨S8, .f32⟩
  | .hbm, ⟨7, _⟩ => ⟨S1x42, .f32⟩
  | .hbm, ⟨8, _⟩ => ⟨S1x8192, .f32⟩
  | .hbm, ⟨9, _⟩ => ⟨S1x8192, .f32⟩
  | .hbm, ⟨10, _⟩ => ⟨S1x8, .f32⟩
  | .hbm, ⟨11, _⟩ => ⟨S1x8192, .f32⟩
  | .hbm, ⟨12, _⟩ => ⟨S1x8192, .f32⟩
  | .hbm, ⟨13, _⟩ => ⟨S1x8, .f32⟩
  | .hbm, ⟨14, _⟩ => ⟨S1x1, .f32⟩
  | .hbm, ⟨15, _⟩ => ⟨S1, .f32⟩
  | .hbm, ⟨16, _⟩ => ⟨S7, .f32⟩
  | .hbm, ⟨17, _⟩ => ⟨S_, .f32⟩
  | .hbm, ⟨18, _⟩ => ⟨S7, .f32⟩
  | .hbm, ⟨19, _⟩ => ⟨S7, .i1⟩
  | .hbm, ⟨20, _⟩ => ⟨S1x7, .f32⟩
  | .hbm, ⟨21, _⟩ => ⟨S7, .f32⟩
  | .hbm, ⟨22, _⟩ => ⟨S_, .f32⟩
  | .hbm, ⟨23, _⟩ => ⟨S_, .f32⟩
  | .hbm, ⟨24, _⟩ => ⟨S7, .f32⟩
  | .hbm, ⟨25, _⟩ => ⟨S7, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S7, .f32⟩
  | .hbm, ⟨32, _⟩ => ⟨S7, .f32⟩
  | .hbm, ⟨33, _⟩ => ⟨S7, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S7, .f32⟩
  | .hbm, ⟨38, _⟩ => ⟨S7, .f32⟩
  | .hbm, ⟨39, _⟩ => ⟨S_, .f32⟩
  | .hbm, ⟨40, _⟩ => ⟨S_, .f32⟩
  | .hbm, ⟨41, _⟩ => ⟨S7, .f32⟩
  | .hbm, ⟨42, _⟩ => ⟨S7, .f32⟩
  | .hbm, ⟨43, _⟩ => ⟨S7x1, .f32⟩
  | .local _ .vmem, ⟨0, _⟩ => ⟨S1x42, .f32⟩
  | .local _ .vmem, ⟨1, _⟩ => ⟨S42x8192, .f32⟩
  | .local _ .vmem, ⟨2, _⟩ => ⟨S1x8192, .f32⟩
  | .local _ .vmem, ⟨3, _⟩ => ⟨S1x8192, .f32⟩
  | .local _ .vmem, ⟨4, _⟩ => ⟨S1x8192, .f32⟩
  | .local _ .vmem, ⟨5, _⟩ => ⟨S8192x256, .f32⟩
  | .local _ .vmem, ⟨6, _⟩ => ⟨S8192x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x8192, .f32⟩
  | .local _ .vmem, ⟨12, _⟩ => ⟨S8192x8, .f32⟩
  | .local _ .vmem, ⟨13, _⟩ => ⟨S1x8, .f32⟩
  | .local _ .vmem, ⟨14, _⟩ => ⟨S1x8, .f32⟩
  | _, _ => ⟨S42, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem2_0 : DmaSem sig := 13
abbrev cc2_sem3_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x42 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S42x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8192x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x8192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S8192x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  shapeCasts_S42_S1x42 : S42.ShapeCasts S1x42
  shapeCasts_S8192_S1x8192 : S8192.ShapeCasts S1x8192
  shapeCasts_S8_S1x8 : S8.ShapeCasts S1x8
  inb_S1x42_S1x42_0_0 : ∀ a, (![0, 0] : Fin 2 → Nat) a + S1x42.size a ≤ S1x42.size a
  h_S1x42 : 0 < S1x42.numel
  shapeCasts_S1x42_S1x42 : S1x42.ShapeCasts S1x42
  bitsLt_bf16_f32 : FTy.bits .bf16 < FTy.bits .f32
  inb_S42x8192_S42x8192_0_0 : ∀ a, (![0, 0] : Fin 2 → Nat) a + S42x8192.size a ≤ S42x8192.size a
  h_S42x8192 : 0 < S42x8192.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S8192x256_S8192x256_0_0 : ∀ a, (![0, 0] : Fin 2 → Nat) a + S8192x256.size a ≤ S8192x256.size a
  h_S8192x256 : 0 < S8192x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S8192x8_S8192x8_0_0 : ∀ a, (![0, 0] : Fin 2 → Nat) a + S8192x8.size a ≤ S8192x8.size a
  h_S8192x8 : 0 < S8192x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  slices_S1x8_S1x1_0_7 : S1x8.Slices ![0, 7] S1x1
  shapeCasts_S1x1_S1 : S1x1.ShapeCasts S1
  slices_S42_S7_0 : S42.Slices ![0] S7
  bcast_S_S7 : S_.BroadcastsInDim S7 (![] : Fin 0 → Fin S7.rank)
  slices_S1x8_S1x7_0_0 : S1x8.Slices ![0, 0] S1x7
  shapeCasts_S1x7_S7 : S1x7.ShapeCasts S7
  reducesTo_S7_S_d0 : S7.ReducesTo [0] S_
  h_S_ : 0 < S_.numel
  bcast_S_S1 : S_.BroadcastsInDim S1 (![] : Fin 0 → Fin S1.rank)
  bcast_S1_S7_0 : S1.BroadcastsInDim S7 (![0] : Fin 1 → Fin S7.rank)
  shapeCasts_S7_S7x1 : S7.ShapeCasts S7x1
  dot_S1x42_S42x8192_S1x8192_1_0_0_1_n_n_wf : DotDims.WF S1x42 S42x8192 S1x8192 [1] [0] [0] [1] [] []
  dot_S1x8192_S8192x256_S1x256_1_0_0_1_n_n_wf : DotDims.WF S1x8192 S8192x256 S1x256 [1] [0] [0] [1] [] []
  dot_S1x8192_S8192x8_S1x8_1_0_0_1_n_n_wf : DotDims.WF S1x8192 S8192x8 S1x8 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x42.size a ≤ S1x42.size a
  hwx0_0 : ∀ i : grid0.Coords, EltTy.bits .f32 = 32 ∨ (Rect.block (s := S1x42) S1x42.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S42x8192.size a ≤ S42x8192.size a
  hwx0_1 : ∀ i : grid0.Coords, EltTy.bits .f32 = 32 ∨ (Rect.block (s := S42x8192) S42x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x8192.size a ≤ S1x8192.size a
  hwx1_0 : ∀ i : grid1.Coords, EltTy.bits .f32 = 32 ∨ (Rect.block (s := S1x8192) S1x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x8192.size a
  hwx1_1 : ∀ i : grid1.Coords, EltTy.bits .f32 = 32 ∨ (Rect.block (s := S8192x8192) S8192x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x8192.size a
  hwx1_2 : ∀ i : grid1.Coords, EltTy.bits .f32 = 32 ∨ (Rect.block (s := S1x8192) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x8192.size a
  hwx1_3 : ∀ i : grid1.Coords, EltTy.bits .f32 = 32 ∨ (Rect.block (s := S1x8192) S1x256.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x8192.size a ≤ S1x8192.size a
  hwx2_0 : ∀ i : grid2.Coords, EltTy.bits .f32 = 32 ∨ (Rect.block (s := S1x8192) S1x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x8.size a ≤ S8192x8.size a
  hwx2_1 : ∀ i : grid2.Coords, EltTy.bits .f32 = 32 ∨ (Rect.block (s := S8192x8) S8192x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)

variable [Facts₀]

def dot_S1x42_S42x8192_S1x8192_1_0_0_1_n_n : DotDims S1x42 S42x8192 S1x8192 where
  lhsContracting := [1]
  rhsContracting := [0]
  lhsNonContracting := [0]
  rhsNonContracting := [1]
  lhsBatch := []
  rhsBatch := []
  wf := dot_S1x42_S42x8192_S1x8192_1_0_0_1_n_n_wf
def dot_S1x8192_S8192x256_S1x256_1_0_0_1_n_n : DotDims S1x8192 S8192x256 S1x256 where
  lhsContracting := [1]
  rhsContracting := [0]
  lhsNonContracting := [0]
  rhsNonContracting := [1]
  lhsBatch := []
  rhsBatch := []
  wf := dot_S1x8192_S8192x256_S1x256_1_0_0_1_n_n_wf
def dot_S1x8192_S8192x8_S1x8_1_0_0_1_n_n : DotDims S1x8192 S8192x8 S1x8 where
  lhsContracting := [1]
  rhsContracting := [0]
  lhsNonContracting := [0]
  rhsNonContracting := [1]
  lhsBatch := []
  rhsBatch := []
  wf := dot_S1x8192_S8192x8_S1x8_1_0_0_1_n_n_wf

abbrev win0_0 : Pipeline.Window sig grid0 :=
  Pipeline.Window.ofSpec (Memref.whole main_v0) S1x42.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S42x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x8192.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S8192x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1x8192.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S8192x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x8.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S42 : Shape := ⟨1, ![42]⟩
abbrev S42x8192 : Shape := ⟨2, ![42, 8192]⟩
abbrev S8192 : Shape := ⟨1, ![8192]⟩
abbrev S8192x8192 : Shape := ⟨2, ![8192, 8192]⟩
abbrev S8192x8 : Shape := ⟨2, ![8192, 8]⟩
abbrev S8 : Shape := ⟨1, ![8]⟩
abbrev S1x42 : Shape := ⟨2, ![1, 42]⟩
abbrev S1x8192 : Shape := ⟨2, ![1, 8192]⟩
abbrev S_ : Shape := ⟨0, ![]⟩
abbrev S1x8 : Shape := ⟨2, ![1, 8]⟩
abbrev S1x1 : Shape := ⟨2, ![1, 1]⟩
abbrev S1 : Shape := ⟨1, ![1]⟩
abbrev S7 : Shape := ⟨1, ![7]⟩
abbrev S1x7 : Shape := ⟨2, ![1, 7]⟩
abbrev S7x1 : Shape := ⟨2, ![7, 1]⟩

abbrev nBuf : Space → Nat
  | .hbm => 53
  | .vmem => 0
  | .smem => 0
  | _ => 0

abbrev bufTy : (tb : Table) → Fin (tcTables nBuf tb) → BufTy
  | .hbm, ⟨0, _⟩ => ⟨S42, .f32⟩
  | .hbm, ⟨1, _⟩ => ⟨S42x8192, .f32⟩
  | .hbm, ⟨2, _⟩ => ⟨S8192, .f32⟩
  | .hbm, ⟨3, _⟩ => ⟨S8192x8192, .f32⟩
  | .hbm, ⟨4, _⟩ => ⟨S8192, .f32⟩
  | .hbm, ⟨5, _⟩ => ⟨S8192x8, .f32⟩
  | .hbm, ⟨6, _⟩ => ⟨S8, .f32⟩
  | .hbm, ⟨7, _⟩ => ⟨S1x42, .f32⟩
  | .hbm, ⟨8, _⟩ => ⟨S1x8192, .f32⟩
  | .hbm, ⟨9, _⟩ => ⟨S1x8192, .f32⟩
  | .hbm, ⟨10, _⟩ => ⟨S1x8192, .f32⟩
  | .hbm, ⟨11, _⟩ => ⟨S_, .f32⟩
  | .hbm, ⟨12, _⟩ => ⟨S1x8192, .f32⟩
  | .hbm, ⟨13, _⟩ => ⟨S1x8192, .f32⟩
  | .hbm, ⟨14, _⟩ => ⟨S1x8192, .f32⟩
  | .hbm, ⟨15, _⟩ => ⟨S1x8192, .f32⟩
  | .hbm, ⟨16, _⟩ => ⟨S1x8192, .f32⟩
  | .hbm, ⟨17, _⟩ => ⟨S_, .f32⟩
  | .hbm, ⟨18, _⟩ => ⟨S1x8192, .f32⟩
  | .hbm, ⟨19, _⟩ => ⟨S1x8192, .f32⟩
  | .hbm, ⟨20, _⟩ => ⟨S1x8, .f32⟩
  | .hbm, ⟨21, _⟩ => ⟨S1x8, .f32⟩
  | .hbm, ⟨22, _⟩ => ⟨S1x8, .f32⟩
  | .hbm, ⟨23, _⟩ => ⟨S1x1, .f32⟩
  | .hbm, ⟨24, _⟩ => ⟨S1, .f32⟩
  | .hbm, ⟨25, _⟩ => ⟨S7, .f32⟩
  | .hbm, ⟨26, _⟩ => ⟨S_, .f32⟩
  | .hbm, ⟨27, _⟩ => ⟨S7, .f32⟩
  | .hbm, ⟨28, _⟩ => ⟨S7, .i1⟩
  | .hbm, ⟨29, _⟩ => ⟨S1x7, .f32⟩
  | .hbm, ⟨30, _⟩ => ⟨S7, .f32⟩
  | .hbm, ⟨31, _⟩ => ⟨S_, .f32⟩
  | .hbm, ⟨32, _⟩ => ⟨S_, .f32⟩
  | .hbm, ⟨33, _⟩ => ⟨S7, .f32⟩
  | .hbm, ⟨34, _⟩ => ⟨S7, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S7, .f32⟩
  | .hbm, ⟨41, _⟩ => ⟨S7, .f32⟩
  | .hbm, ⟨42, _⟩ => ⟨S7, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S7, .f32⟩
  | .hbm, ⟨47, _⟩ => ⟨S7, .f32⟩
  | .hbm, ⟨48, _⟩ => ⟨S_, .f32⟩
  | .hbm, ⟨49, _⟩ => ⟨S_, .f32⟩
  | .hbm, ⟨50, _⟩ => ⟨S7, .f32⟩
  | .hbm, ⟨51, _⟩ => ⟨S7, .f32⟩
  | .hbm, ⟨52, _⟩ => ⟨S7x1, .f32⟩
  | _, _ => ⟨S42, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call1_cst : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_call2_v0 : Ref sig .tc := ⟨.hbm, 32, rfl⟩
abbrev main_call2_v1 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_call3_v0 : Ref sig .tc := ⟨.hbm, 49, rfl⟩
abbrev main_call3_v1 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]

class Facts₀ : Prop where
  shapeCasts_S42_S1x42 : S42.ShapeCasts S1x42
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S8_S1x8_1 : S8.BroadcastsInDim S1x8 (![1] : Fin 1 → Fin S1x8.rank)
  slices_S1x8_S1x1_0_7 : S1x8.Slices ![0, 7] S1x1
  shapeCasts_S1x1_S1 : S1x1.ShapeCasts S1
  slices_S42_S7_0 : S42.Slices ![0] S7
  bcast_S_S7 : S_.BroadcastsInDim S7 (![] : Fin 0 → Fin S7.rank)
  slices_S1x8_S1x7_0_0 : S1x8.Slices ![0, 0] S1x7
  shapeCasts_S1x7_S7 : S1x7.ShapeCasts S7
  reducesTo_S7_S_d0 : S7.ReducesTo [0] S_
  h_S_ : 0 < S_.numel
  bcast_S_S1 : S_.BroadcastsInDim S1 (![] : Fin 0 → Fin S1.rank)
  bcast_S1_S7_0 : S1.BroadcastsInDim S7 (![0] : Fin 1 → Fin S7.rank)
  shapeCasts_S7_S7x1 : S7.ShapeCasts S7x1
  dot_S1x42_S42x8192_S1x8192_1_0_0_1_n_n_wf : DotDims.WF S1x42 S42x8192 S1x8192 [1] [0] [0] [1] [] []
  dot_S1x8192_S8192x8192_S1x8192_1_0_0_1_n_n_wf : DotDims.WF S1x8192 S8192x8192 S1x8192 [1] [0] [0] [1] [] []
  dot_S1x8192_S8192x8_S1x8_1_0_0_1_n_n_wf : DotDims.WF S1x8192 S8192x8 S1x8 [1] [0] [0] [1] [] []

variable [Facts₀]

def dot_S1x42_S42x8192_S1x8192_1_0_0_1_n_n : DotDims S1x42 S42x8192 S1x8192 where
  lhsContracting := [1]
  rhsContracting := [0]
  lhsNonContracting := [0]
  rhsNonContracting := [1]
  lhsBatch := []
  rhsBatch := []
  wf := dot_S1x42_S42x8192_S1x8192_1_0_0_1_n_n_wf
def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf
def dot_S1x8192_S8192x8_S1x8_1_0_0_1_n_n : DotDims S1x8192 S8192x8 S1x8 where
  lhsContracting := [1]
  rhsContracting := [0]
  lhsNonContracting := [0]
  rhsNonContracting := [1]
  lhsBatch := []
  rhsBatch := []
  wf := dot_S1x8192_S8192x8_S1x8_1_0_0_1_n_n_wf

class Facts : Prop extends Facts₀ where

variable [Facts]
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«150059_j5755256177435_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibDotBlocks.lean ====
/-
  A matrix product computed on blocks of its operands is the whole product there.

  At the ideal values — floats extended reals, every operation exact — a `tpu.matmul` into the zero
  accumulator and the host's `dot_general`, both with the plain dimension numbers "rows × contraction
  times contraction × columns", are the same sum over the contraction index.  So a block of rows of the
  left operand times a block of columns of the right operand, multiplied on the matrix unit, gives at its
  local index (p, q) the whole product's entry at (r, c), as soon as row p of the left block is row r of
  the whole left operand and column q of the right block is column c of the whole right operand.  The
  contraction is not blocked; no finiteness is used: both sides are one and the same sum.
-/
import proofs.«150059_j5755256177435_1_alg».proof.Proof.LibRowBlocks

noncomputable section

namespace Cert.Lib.DotBlocks

open Idealize.ShloMosaic Idealize.ShloMosaic.ValueIdx Cert.Lib.PlainDot Cert.Lib.RowBlocks

variable {M K N : Nat}

/-- A block of B rows of the left operand times a block of D columns of the right operand, into the zero
    accumulator: its entry at the local index (p, q) is the whole product's entry at (r, c), when row p of
    the left block is row r of the whole left operand and column q of the right block is column c of the
    whole right operand (the operands' float formats may differ between the blocks and the whole: at the
    ideal values every format is the extended reals). -/
theorem matmul_block_eq_dotGeneral {B D : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, D]⟩ φ₂) (p : Fin B) (q : Fin D) (r : Fin M) (c : Fin N)
    (hx : ∀ k : Fin K, (xb (ix2 p k) : EReal) = x (ix2 r k)) (hw : ∀ k : Fin K, (wb (ix2 k q) : EReal) = w (ix2 k c)) :
    matmul (DotDims.plain B K D) prec xb wb (constant (F := Ideal) ⟨2, ![B, D]⟩ .f32 0x00000000#32) (ix2 p q)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.DotBlocks

end
-- ==== Proof.Layers.lean ====
/-
  The three dense layers, and the kernels' bodies against them.

  The network is x ↦ max (x·W1 + b1, 0) ↦ max (·W2 + b2, 0) ↦ ·W3 + b3 on a single row.  The reference computes
  each layer with the host's matrix product, a bias row and, for the two hidden layers, the maximum with a row
  of zeros; these three expressions are named here, over a bias that is already a row [1, N].
  Each kernel body computes the same thing on the blocks it is given: it narrows both operands to bf16 (at the
  ideal values a change of format is the identity), multiplies them on the matrix unit into a zero accumulator
  (the same sum over the contraction index as the host's product), adds the bias block and, for the hidden
  layers, takes the maximum with a splat zero.  The second layer's body sees a block of 256 columns of W2 and of
  the bias, and all of the previous layer's row: the contraction is never blocked, so its entry at the local
  column q is the reference layer's entry at the column c of the whole array that q stands for.  Only the
  definitions of the sums are used: no algebraic law, and no finiteness of the inputs.
-/
import proofs.«150059_j5755256177435_1_alg».proof.Proof.Gen.KernelIdeal.Skeleton
import proofs.«150059_j5755256177435_1_alg».proof.Proof.Gen.ReferenceIdeal
import proofs.«150059_j5755256177435_1_alg».proof.Proof.LibDotBlocks
import Idealize.ShloMosaic.Lib.ValueIdx
import Idealize.ShloMosaic.Lib.Pipeline.Value

noncomputable section

namespace Cert.Layers

open Idealize.ShloMosaic Idealize.ShloMosaic.ValueIdx
open Cert.ReferenceIdeal Cert.ReferenceIdeal.Gen

section Spec

variable {F : FTy → Type} [FloatOps F]

/-- The row of zeros a hidden layer is rectified against. -/
def zeroRow : FVec F S1x8192 .f32 :=
  broadcastInDim S1x8192 ![] bcast_S_S1x8192 (constant S_ .f32 0x00000000#32)

/-- The first hidden layer: max (x·W + b, 0), the bias a row. -/
def hidden1 (x : FVec F S1x42 .f32) (W : FVec F S42x8192 .f32) (b : FVec F S1x8192 .f32) : FVec F S1x8192 .f32 :=
  maximumf (addf (Host.dotGeneral dot_S1x42_S42x8192_S1x8192_1_0_0_1_n_n none x W) b) zeroRow

/-- The second hidden layer: max (h·W + b, 0), the bias a row. -/
def hidden2 (h : FVec F S1x8192 .f32) (W : FVec F S8192x8192 .f32) (b : FVec F S1x8192 .f32) : FVec F S1x8192 .f32 :=
  maximumf (addf (Host.dotGeneral dot_S1x8192_S8192x8192_S1x8192_1_0_0_1_n_n none h W) b) zeroRow

/-- The output layer: h·W + b, the bias a row. -/
def outputs (h : FVec F S1x8192 .f32) (W : FVec F S8192x8 .f32) (b : FVec F S1x8 .f32) : FVec F S1x8 .f32 :=
  addf (Host.dotGeneral dot_S1x8192_S8192x8_S1x8_1_0_0_1_n_n none h W) b

end Spec

/-- The row of zeros reads the extended real 0 everywhere, as the splat zero does. -/
theorem zeroRow_apply (j : S1x8192.Idx) : zeroRow (F := Ideal) j = Ideal.ofBits .f32 0x00000000#32 := by
  unfold zeroRow
  exact broadcastInDim_apply _ bcast_S_S1x8192 _ j (fun a => a.elim0) (fun a => a.elim0)

/-- The first kernel's body at a block entry: when row p of its left block is row p of x, column q of its weight
    block is column c of W, and its bias block at (p, q) is the bias row at (p, c), the body's value at (p, q) is
    the first hidden layer at (p, c). -/
theorem body1_at (xb : FVec Ideal Cert.KernelIdeal.S1x42 .f32) (Wb : FVec Ideal Cert.KernelIdeal.S42x8192 .f32)
    (bb : FVec Ideal Cert.KernelIdeal.S1x8192 .f32)
    (x : FVec Ideal S1x42 .f32) (W : FVec Ideal S42x8192 .f32) (b : FVec Ideal S1x8192 .f32) (p : Fin 1) (q c : Fin 8192)
    (hx : ∀ k : Fin 42, xb (ix2 p k) = x (ix2 p k)) (hW : ∀ k : Fin 42, Wb (ix2 k q) = W (ix2 k c))
    (hb : bb (ix2 p q) = b (ix2 p c)) :
    Cert.KernelIdeal.Gen.k0_pay1 (F := Ideal) xb Wb bb (ix2 p q) = hidden1 x W b (ix2 p c) := by
  unfold Cert.KernelIdeal.Gen.k0_pay1 hidden1
  rw [shapeCast_self, shapeCast_self]
  show FloatOps.maximumf (FloatOps.addf (matmul (DotDims.plain 1 42 8192) none (truncf .bf16 xb _) (truncf .bf16 Wb _)
      (constant (F := Ideal) ⟨2, ![1, 8192]⟩ .f32 0x00000000#32) (ix2 p q)) (bb (ix2 p q))) (Ideal.ofBits .f32 0x00000000#32)
    = FloatOps.maximumf (FloatOps.addf (Host.dotGeneral (DotDims.plain 1 42 8192) none x W (ix2 p c)) (b (ix2 p c))) (zeroRow (ix2 p c))
  rw [zeroRow_apply, hb]
  refine congrArg (fun v : EReal => FloatOps.maximumf (F := Ideal) (φ := .f32) (FloatOps.addf (F := Ideal) (φ := .f32) v (b (ix2 p c))) (Ideal.ofBits .f32 0x00000000#32)) ?_
  exact Cert.Lib.DotBlocks.matmul_block_eq_dotGeneral none none x W _ _ p q p c (fun k => hx k) (fun k => hW k)

/-- The second kernel's body at a block entry: it is given the whole previous row, a block of columns of the
    weights and of the bias; when column q of the weight block is column c of W and the bias block at (p, q) is the
    bias row at (p, c), the body's value at (p, q) is the second hidden layer at (p, c). -/
theorem body2_at (hb' : FVec Ideal Cert.KernelIdeal.S1x8192 .f32) (Wb : FVec Ideal Cert.KernelIdeal.S8192x256 .f32)
    (bb : FVec Ideal Cert.KernelIdeal.S1x256 .f32)
    (h : FVec Ideal S1x8192 .f32) (W : FVec Ideal S8192x8192 .f32) (b : FVec Ideal S1x8192 .f32) (p : Fin 1) (q : Fin 256) (c : Fin 8192)
    (hx : ∀ k : Fin 8192, hb' (ix2 p k) = h (ix2 p k)) (hW : ∀ k : Fin 8192, Wb (ix2 k q) = W (ix2 k c))
    (hb : bb (ix2 p q) = b (ix2 p c)) :
    Cert.KernelIdeal.Gen.k1_pay1 (F := Ideal) hb' Wb bb (ix2 p q) = hidden2 h W b (ix2 p c) := by
  unfold Cert.KernelIdeal.Gen.k1_pay1 hidden2
  rw [shapeCast_self, shapeCast_self]
  show FloatOps.maximumf (FloatOps.addf (matmul (DotDims.plain 1 8192 256) none (truncf .bf16 hb' _) (truncf .bf16 Wb _)
      (constant (F := Ideal) ⟨2, ![1, 256]⟩ .f32 0x00000000#32) (ix2 p q)) (bb (ix2 p q))) (Ideal.ofBits .f32 0x00000000#32)
    = FloatOps.maximumf (FloatOps.addf (Host.dotGeneral (DotDims.plain 1 8192 8192) none h W (ix2 p c)) (b (ix2 p c))) (zeroRow (ix2 p c))
  rw [zeroRow_apply, hb]
  refine congrArg (fun v : EReal => FloatOps.maximumf (F := Ideal) (φ := .f32) (FloatOps.addf (F := Ideal) (φ := .f32) v (b (ix2 p c))) (Ideal.ofBits .f32 0x00000000#32)) ?_
  exact Cert.Lib.DotBlocks.matmul_block_eq_dotGeneral none none h W _ _ p q p c (fun k => hx k) (fun k => hW k)

/-- The third kernel's body at a block entry, likewise, is the output layer (no rectifier). -/
theorem body3_at (hb' : FVec Ideal Cert.KernelIdeal.S1x8192 .f32) (Wb : FVec Ideal Cert.KernelIdeal.S8192x8 .f32)
    (bb : FVec Ideal Cert.KernelIdeal.S1x8 .f32)
    (h : FVec Ideal S1x8192 .f32) (W : FVec Ideal S8192x8 .f32) (b : FVec Ideal S1x8 .f32) (p : Fin 1) (q c : Fin 8)
    (hx : ∀ k : Fin 8192, hb' (ix2 p k) = h (ix2 p k)) (hW : ∀ k : Fin 8192, Wb (ix2 k q) = W (ix2 k c))
    (hb : bb (ix2 p q) = b (ix2 p c)) :
    Cert.KernelIdeal.Gen.k2_pay1 (F := Ideal) hb' Wb bb (ix2 p q) = outputs h W b (ix2 p c) := by
  unfold Cert.KernelIdeal.Gen.k2_pay1 outputs
  rw [shapeCast_self, shapeCast_self]
  show FloatOps.addf (matmul (DotDims.plain 1 8192 8) none (truncf .bf16 hb' _) (truncf .bf16 Wb _)
      (constant (F := Ideal) ⟨2, ![1, 8]⟩ .f32 0x00000000#32) (ix2 p q)) (bb (ix2 p q))
    = FloatOps.addf (Host.dotGeneral (DotDims.plain 1 8192 8) none h W (ix2 p c)) (b (ix2 p c))
  rw [hb]
  refine congrArg (fun v : EReal => FloatOps.addf (F := Ideal) (φ := .f32) v (b (ix2 p c))) ?_
  exact Cert.Lib.DotBlocks.matmul_block_eq_dotGeneral none none h W _ _ p q p c (fun k => hx k) (fun k => hW k)

end Cert.Layers

end
-- ==== Proof.FirstLayer.lean ====
/-
  The first launch: one grid point, whose blocks are the whole arrays.

  The body is given the whole input row, all of W1 and the whole bias row, and writes the whole output row: what the
  point writes back is the reference's first hidden layer of the arrays as the launch finds them, and its one block is
  the whole output array.
-/
import proofs.«150059_j5755256177435_1_alg».proof.Proof.Gen.KernelIdeal.Frame
import proofs.«150059_j5755256177435_1_alg».proof.Proof.Layers

set_option maxRecDepth 16384

noncomputable section

namespace Cert.KernelIdeal.FirstLayer

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The first hidden layer of three arrays, at the ideal values, typed as the launch's buffers are. -/
abbrev layer (x : S1x42.Idx → Elt Ideal .f32) (W : S42x8192.Idx → Elt Ideal .f32) (b : S1x8192.Idx → Elt Ideal .f32) :
    S1x8192.Idx → Elt Ideal .f32 := Cert.Layers.hidden1 (F := Ideal) x W b

theorem origin : (![0, 0] : Fin 2 → Nat) = fun _ => 0 := funext fun a => by fin_cases a <;> rfl

/-- The printed index maps over the grid: every window sits at the origin. -/
theorem blocks_at : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The grid has a point, and its output block is the one at the origin. -/
theorem block_of : ∃ t : Fin cfg0.N, win0_3.index t = ![0, 0] :=
  (by decide +kernel : ∃ t : Fin grid0.N, win0_3.index t = ![0, 0])

/-- What the point writes back is the layer of the arrays as the launch finds them, read through the point's block. -/
theorem written (c : Dev nD) (t : Fin cfg0.N) :
    (dat0 V c).flushed 3 t = ((cfg0.win 3).blk t).view.read (Elt Ideal)
      (layer (V c main_v0) (V c main_arg1) (V c main_v1)) := by
  show (cfg0.win 3).cut (grid0.coords t) ((dat0 V c).after 3 t) = _
  rw [after0_3]
  unfold out0_3
  rw [View.canon_unit_zero origin]
  simp only [View.ld_unit_zero (S := S1x42) origin, View.ld_unit_zero (S := S42x8192) origin, View.ld_unit_zero (S := S1x8192) origin]
  obtain ⟨e00, e01, e10, e11, e20, e21, e30, e31⟩ := blocks_at t
  funext j
  show k0_pay1 (iblk0 V c 0 t) (iblk0 V c 1 t) (iblk0 V c 2 t) j
    = layer (V c main_v0) (V c main_arg1) (V c main_v1) (((cfg0.win 3).blk t).view.emb j)
  have hj0 : (j 0).val < 1 := (j 0).isLt
  have hj1 : (j 1).val < 8192 := (j 1).isLt
  have hj : j = ix2 (⟨(j 0).val, hj0⟩ : Fin 1) (⟨(j 1).val, hj1⟩ : Fin 8192) :=
    funext fun a => Fin.ext (by match a with | ⟨0, _⟩ => rfl | ⟨1, _⟩ => rfl)
  have he : ((cfg0.win 3).blk t).view.emb j = ix2 (⟨(j 0).val, hj0⟩ : Fin 1) (⟨(j 1).val, hj1⟩ : Fin 8192) :=
    funext fun a => Fin.ext (by
      match a with
      | ⟨0, _⟩ => show win0_3.index t (0 : Fin 2) * 1 + 1 * (j 0).val = (j 0).val; omega
      | ⟨1, _⟩ => show win0_3.index t (1 : Fin 2) * 8192 + 1 * (j 1).val = (j 1).val; omega)
  refine (congrArg (k0_pay1 (iblk0 V c 0 t) (iblk0 V c 1 t) (iblk0 V c 2 t)) hj).trans
    ((Cert.Layers.body1_at (iblk0 V c 0 t) (iblk0 V c 1 t) (iblk0 V c 2 t) (V c main_v0) (V c main_arg1) (V c main_v1)
      (⟨(j 0).val, hj0⟩ : Fin 1) (⟨(j 1).val, hj1⟩ : Fin 8192) (⟨(j 1).val, hj1⟩ : Fin 8192)
      (fun k => ?_) (fun k => ?_) ?_).trans
      (congrArg (layer (V c main_v0) (V c main_arg1) (V c main_v1)) he.symm))
  · show V c main_v0 (((cfg0.win 0).blk t).view.emb (ix2 (⟨(j 0).val, hj0⟩ : Fin 1) k)) = V c main_v0 (ix2 (⟨(j 0).val, hj0⟩ : Fin 1) k)
    refine congrArg (V c main_v0) (funext fun a => Fin.ext ?_)
    match a with
    | ⟨0, _⟩ => show win0_0.index t (0 : Fin 2) * 1 + 1 * (j 0).val = (j 0).val; omega
    | ⟨1, _⟩ => show win0_0.index t (1 : Fin 2) * 42 + 1 * k.val = k.val; omega
  · show V c main_arg1 (((cfg0.win 1).blk t).view.emb (ix2 k (⟨(j 1).val, hj1⟩ : Fin 8192))) = V c main_arg1 (ix2 k (⟨(j 1).val, hj1⟩ : Fin 8192))
    refine congrArg (V c main_arg1) (funext fun a => Fin.ext ?_)
    match a with
    | ⟨0, _⟩ => show win0_1.index t (0 : Fin 2) * 42 + 1 * k.val = k.val; omega
    | ⟨1, _⟩ => show win0_1.index t (1 : Fin 2) * 8192 + 1 * (j 1).val = (j 1).val; omega
  · show V c main_v1 (((cfg0.win 2).blk t).view.emb (ix2 (⟨(j 0).val, hj0⟩ : Fin 1) (⟨(j 1).val, hj1⟩ : Fin 8192)))
      = V c main_v1 (ix2 (⟨(j 0).val, hj0⟩ : Fin 1) (⟨(j 1).val, hj1⟩ : Fin 8192))
    refine congrArg (V c main_v1) (funext fun a => Fin.ext ?_)
    match a with
    | ⟨0, _⟩ => show win0_2.index t (0 : Fin 2) * 1 + 1 * (j 0).val = (j 0).val; omega
    | ⟨1, _⟩ => show win0_2.index t (1 : Fin 2) * 8192 + 1 * (j 1).val = (j 1).val; omega

/-- An index of the output array is in the point's block iff each coordinate is in the block's range on its axis. -/
theorem in_block (t : Fin cfg0.N) (i : S1x8192.Idx) :
    i ∈ ((cfg0.win 3).blk t).view.set ↔ ∀ a : Fin 2, win0_3.index t a * S1x8192.size a ≤ (i a).val ∧ (i a).val < win0_3.index t a * S1x8192.size a + S1x8192.size a := by
  show i ∈ ((View.whole main_v4).slice (win0_3.rect t)).set ↔ _
  rw [View.set_slice_whole, Rect.mem_set_unit]
  exact Iff.rfl

/-- The one block is the whole output array. -/
theorem covered (i : S1x8192.Idx) : ∃ t : Fin cfg0.N, (cfg0.win 3).flush t = true ∧ i ∈ ((cfg0.win 3).blk t).view.set := by
  have hi0 : (i 0).val < 1 := (i 0).isLt
  have hi1 : (i 1).val < 8192 := (i 1).isLt
  obtain ⟨t, ht⟩ := block_of
  have q0 : win0_3.index t (0 : Fin 2) = 0 := congrFun ht 0
  have q1 : win0_3.index t (1 : Fin 2) = 0 := congrFun ht 1
  refine ⟨t, flush0_3 t, ?_⟩
  rw [in_block]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 8192 ≤ (i 1).val ∧ (i 1).val < win0_3.index t (1 : Fin 2) * 8192 + 8192; omega

/-- After the launch the output array is the layer of the arrays as the launch finds them. -/
theorem final (c : Dev nD) :
    (dat0 V c).arrAt 3 cfg0.N = layer (V c main_v0) (V c main_arg1) (V c main_v1) :=
  (dat0 V c).arrAt_eq_of_cover 3 (layer (V c main_v0) (V c main_arg1) (V c main_v1))
    (fun t _ => written V c t) (covered)

end Cert.KernelIdeal.FirstLayer

end
-- ==== Proof.SecondLayer.lean ====
/-
  The second launch: 32 grid points, point t computing columns 256·t … 256·t + 255 of the second hidden layer.

  At point t the body is given the whole previous row (its window never moves), the block of columns 256·t … of the
  weights W2 (all 8192 rows: the contraction is not blocked) and the same columns of the bias row; it writes the
  same columns of the output row.  So what point t writes back is block t of ONE row, the reference's second
  hidden layer of the arrays as the launch finds them; the 32 blocks tile the row, so after the launch the output
  array is that row.
-/
import proofs.«150059_j5755256177435_1_alg».proof.Proof.Gen.KernelIdeal.Frame
import proofs.«150059_j5755256177435_1_alg».proof.Proof.Layers

set_option maxRecDepth 16384

noncomputable section

namespace Cert.KernelIdeal.SecondLayer

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The second hidden layer of three arrays, at the ideal values, typed as the launch's buffers are. -/
abbrev layer (h : S1x8192.Idx → Elt Ideal .f32) (W : S8192x8192.Idx → Elt Ideal .f32) (b : S1x8192.Idx → Elt Ideal .f32) :
    S1x8192.Idx → Elt Ideal .f32 := Cert.Layers.hidden2 (F := Ideal) h W b

theorem origin : (![0, 0] : Fin 2 → Nat) = fun _ => 0 := funext fun a => by fin_cases a <;> rfl

/-- The printed index maps over the grid: the previous row's window stays at the origin; the weights', the bias's
    and the output's windows sit at row block 0 and at one and the same column block, which is below 32. -/
theorem blocks_at : ∀ t : Fin cfg1.N, win1_0.index t (0 : Fin 2) = 0 ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) = 0 ∧ win1_3.index t (1 : Fin 2) ≤ 31 :=
  (by decide +kernel : ∀ t : Fin grid1.N, _)

/-- Every one of the 32 column blocks is some point's. -/
theorem block_of : ∀ q : Fin 32, ∃ t : Fin cfg1.N, win1_3.index t = ![0, q.val] :=
  (by decide +kernel : ∀ q : Fin 32, ∃ t : Fin grid1.N, win1_3.index t = ![0, q.val])

/-- What point t writes back is block t of the second hidden layer of the arrays as the launch finds them. -/
theorem written (c : Dev nD) (t : Fin cfg1.N) :
    (dat1 V c).flushed 3 t = ((cfg1.win 3).blk t).view.read (Elt Ideal)
      (layer (V c main_v4) (V c main_arg3) (V c main_v2)) := by
  show (cfg1.win 3).cut (grid1.coords t) ((dat1 V c).after 3 t) = _
  rw [after1_3]
  unfold out1_3
  rw [View.canon_unit_zero origin]
  simp only [View.ld_unit_zero (S := S1x8192) origin, View.ld_unit_zero (S := S8192x256) origin, View.ld_unit_zero (S := S1x256) origin]
  obtain ⟨e00, e01, e10, e11, e20, e21, e30, e31⟩ := blocks_at t
  funext j
  show k1_pay1 (iblk1 V c 0 t) (iblk1 V c 1 t) (iblk1 V c 2 t) j
    = layer (V c main_v4) (V c main_arg3) (V c main_v2) (((cfg1.win 3).blk t).view.emb j)
  have hj0 : (j 0).val < 1 := (j 0).isLt
  have hj1 : (j 1).val < 256 := (j 1).isLt
  have hj : j = ix2 (⟨(j 0).val, hj0⟩ : Fin 1) (⟨(j 1).val, hj1⟩ : Fin 256) :=
    funext fun a => Fin.ext (by match a with | ⟨0, _⟩ => rfl | ⟨1, _⟩ => rfl)
  have he : ((cfg1.win 3).blk t).view.emb j
      = ix2 (⟨(j 0).val, hj0⟩ : Fin 1) (⟨win1_3.index t (1 : Fin 2) * 256 + (j 1).val, by omega⟩ : Fin 8192) :=
    funext fun a => Fin.ext (by
      match a with
      | ⟨0, _⟩ => show win1_3.index t (0 : Fin 2) * 1 + 1 * (j 0).val = (j 0).val; omega
      | ⟨1, _⟩ => show win1_3.index t (1 : Fin 2) * 256 + 1 * (j 1).val = win1_3.index t (1 : Fin 2) * 256 + (j 1).val; omega)
  refine (congrArg (k1_pay1 (iblk1 V c 0 t) (iblk1 V c 1 t) (iblk1 V c 2 t)) hj).trans
    ((Cert.Layers.body2_at (iblk1 V c 0 t) (iblk1 V c 1 t) (iblk1 V c 2 t) (V c main_v4) (V c main_arg3) (V c main_v2)
      (⟨(j 0).val, hj0⟩ : Fin 1) (⟨(j 1).val, hj1⟩ : Fin 256) (⟨win1_3.index t (1 : Fin 2) * 256 + (j 1).val, by omega⟩ : Fin 8192)
      (fun k => ?_) (fun k => ?_) ?_).trans
      (congrArg (layer (V c main_v4) (V c main_arg3) (V c main_v2)) he.symm))
  · show V c main_v4 (((cfg1.win 0).blk t).view.emb (ix2 (⟨(j 0).val, hj0⟩ : Fin 1) k)) = V c main_v4 (ix2 (⟨(j 0).val, hj0⟩ : Fin 1) k)
    refine congrArg (V c main_v4) (funext fun a => Fin.ext ?_)
    match a with
    | ⟨0, _⟩ => show win1_0.index t (0 : Fin 2) * 1 + 1 * (j 0).val = (j 0).val; omega
    | ⟨1, _⟩ => show win1_0.index t (1 : Fin 2) * 8192 + 1 * k.val = k.val; omega
  · show V c main_arg3 (((cfg1.win 1).blk t).view.emb (ix2 k (⟨(j 1).val, hj1⟩ : Fin 256)))
      = V c main_arg3 (ix2 k (⟨win1_3.index t (1 : Fin 2) * 256 + (j 1).val, by omega⟩ : Fin 8192))
    refine congrArg (V c main_arg3) (funext fun a => Fin.ext ?_)
    match a with
    | ⟨0, _⟩ => show win1_1.index t (0 : Fin 2) * 8192 + 1 * k.val = k.val; omega
    | ⟨1, _⟩ => show win1_1.index t (1 : Fin 2) * 256 + 1 * (j 1).val = win1_3.index t (1 : Fin 2) * 256 + (j 1).val; omega
  · show V c main_v2 (((cfg1.win 2).blk t).view.emb (ix2 (⟨(j 0).val, hj0⟩ : Fin 1) (⟨(j 1).val, hj1⟩ : Fin 256)))
      = V c main_v2 (ix2 (⟨(j 0).val, hj0⟩ : Fin 1) (⟨win1_3.index t (1 : Fin 2) * 256 + (j 1).val, by omega⟩ : Fin 8192))
    refine congrArg (V c main_v2) (funext fun a => Fin.ext ?_)
    match a with
    | ⟨0, _⟩ => show win1_2.index t (0 : Fin 2) * 1 + 1 * (j 0).val = (j 0).val; omega
    | ⟨1, _⟩ => show win1_2.index t (1 : Fin 2) * 256 + 1 * (j 1).val = win1_3.index t (1 : Fin 2) * 256 + (j 1).val; omega

/-- An index of the output row is in point t's block iff each coordinate is in the block's range on its axis. -/
theorem in_block (t : Fin cfg1.N) (i : S1x8192.Idx) :
    i ∈ ((cfg1.win 3).blk t).view.set ↔ ∀ a : Fin 2, win1_3.index t a * S1x256.size a ≤ (i a).val ∧ (i a).val < win1_3.index t a * S1x256.size a + S1x256.size a := by
  show i ∈ ((View.whole main_v5).slice (win1_3.rect t)).set ↔ _
  rw [View.set_slice_whole, Rect.mem_set_unit]
  exact Iff.rfl

/-- The 32 blocks cover the output row: column c is in the block of point c / 256. -/
theorem covered (i : S1x8192.Idx) : ∃ t : Fin cfg1.N, (cfg1.win 3).flush t = true ∧ i ∈ ((cfg1.win 3).blk t).view.set := by
  have hi0 : (i 0).val < 1 := (i 0).isLt
  have hi1 : (i 1).val < 8192 := (i 1).isLt
  obtain ⟨t, ht⟩ := block_of ⟨(i 1).val / 256, by omega⟩
  have q0 : win1_3.index t (0 : Fin 2) = 0 := congrFun ht 0
  have q1 : win1_3.index t (1 : Fin 2) = (i 1).val / 256 := congrFun ht 1
  refine ⟨t, flush1_3 t, ?_⟩
  rw [in_block]
  intro a
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 256 ≤ (i 1).val ∧ (i 1).val < win1_3.index t (1 : Fin 2) * 256 + 256; omega

/-- After the launch the output array is the second hidden layer of the arrays as the launch finds them. -/
theorem final (c : Dev nD) :
    (dat1 V c).arrAt 3 cfg1.N = layer (V c main_v4) (V c main_arg3) (V c main_v2) :=
  (dat1 V c).arrAt_eq_of_cover 3 (layer (V c main_v4) (V c main_arg3) (V c main_v2))
    (fun t _ => written V c t) (covered)

end Cert.KernelIdeal.SecondLayer

end
-- ==== Proof.OutputLayer.lean ====
/-
  The third launch: one grid point, whose blocks are the whole arrays.

  The body is given the whole second hidden row, all of W3 and the whole bias row, and writes the whole row of eight
  outputs: what the point writes back is the reference's output layer of the arrays as the launch finds them, and its
  one block is the whole output array.
-/
import proofs.«150059_j5755256177435_1_alg».proof.Proof.Gen.KernelIdeal.Frame
import proofs.«150059_j5755256177435_1_alg».proof.Proof.Layers

set_option maxRecDepth 16384

noncomputable section

namespace Cert.KernelIdeal.OutputLayer

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The output layer of three arrays, at the ideal values, typed as the launch's buffers are. -/
abbrev layer (x : S1x8192.Idx → Elt Ideal .f32) (W : S8192x8.Idx → Elt Ideal .f32) (b : S1x8.Idx → Elt Ideal .f32) :
    S1x8.Idx → Elt Ideal .f32 := Cert.Layers.outputs (F := Ideal) x W b

theorem origin : (![0, 0] : Fin 2 → Nat) = fun _ => 0 := funext fun a => by fin_cases a <;> rfl

/-- The printed index maps over the grid: every window sits at the origin. -/
theorem blocks_at : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The grid has a point, and its output block is the one at the origin. -/
theorem block_of : ∃ t : Fin cfg2.N, win2_3.index t = ![0, 0] :=
  (by decide +kernel : ∃ t : Fin grid2.N, win2_3.index t = ![0, 0])

/-- What the point writes back is the layer of the arrays as the launch finds them, read through the point's block. -/
theorem written (c : Dev nD) (t : Fin cfg2.N) :
    (dat2 V c).flushed 3 t = ((cfg2.win 3).blk t).view.read (Elt Ideal)
      (layer (V c main_v5) (V c main_arg5) (V c main_v3)) := by
  show (cfg2.win 3).cut (grid2.coords t) ((dat2 V c).after 3 t) = _
  rw [after2_3]
  unfold out2_3
  rw [View.canon_unit_zero origin]
  simp only [View.ld_unit_zero (S := S1x8192) origin, View.ld_unit_zero (S := S8192x8) origin, View.ld_unit_zero (S := S1x8) origin]
  obtain ⟨e00, e01, e10, e11, e20, e21, e30, e31⟩ := blocks_at t
  funext j
  show k2_pay1 (iblk2 V c 0 t) (iblk2 V c 1 t) (iblk2 V c 2 t) j
    = layer (V c main_v5) (V c main_arg5) (V c main_v3) (((cfg2.win 3).blk t).view.emb j)
  have hj0 : (j 0).val < 1 := (j 0).isLt
  have hj1 : (j 1).val < 8 := (j 1).isLt
  have hj : j = ix2 (⟨(j 0).val, hj0⟩ : Fin 1) (⟨(j 1).val, hj1⟩ : Fin 8) :=
    funext fun a => Fin.ext (by match a with | ⟨0, _⟩ => rfl | ⟨1, _⟩ => rfl)
  have he : ((cfg2.win 3).blk t).view.emb j = ix2 (⟨(j 0).val, hj0⟩ : Fin 1) (⟨(j 1).val, hj1⟩ : Fin 8) :=
    funext fun a => Fin.ext (by
      match a with
      | ⟨0, _⟩ => show win2_3.index t (0 : Fin 2) * 1 + 1 * (j 0).val = (j 0).val; omega
      | ⟨1, _⟩ => show win2_3.index t (1 : Fin 2) * 8 + 1 * (j 1).val = (j 1).val; omega)
  refine (congrArg (k2_pay1 (iblk2 V c 0 t) (iblk2 V c 1 t) (iblk2 V c 2 t)) hj).trans
    ((Cert.Layers.body3_at (iblk2 V c 0 t) (iblk2 V c 1 t) (iblk2 V c 2 t) (V c main_v5) (V c main_arg5) (V c main_v3)
      (⟨(j 0).val, hj0⟩ : Fin 1) (⟨(j 1).val, hj1⟩ : Fin 8) (⟨(j 1).val, hj1⟩ : Fin 8)
      (fun k => ?_) (fun k => ?_) ?_).trans
      (congrArg (layer (V c main_v5) (V c main_arg5) (V c main_v3)) he.symm))
  · show V c main_v5 (((cfg2.win 0).blk t).view.emb (ix2 (⟨(j 0).val, hj0⟩ : Fin 1) k)) = V c main_v5 (ix2 (⟨(j 0).val, hj0⟩ : Fin 1) k)
    refine congrArg (V c main_v5) (funext fun a => Fin.ext ?_)
    match a with
    | ⟨0, _⟩ => show win2_0.index t (0 : Fin 2) * 1 + 1 * (j 0).val = (j 0).val; omega
    | ⟨1, _⟩ => show win2_0.index t (1 : Fin 2) * 8192 + 1 * k.val = k.val; omega
  · show V c main_arg5 (((cfg2.win 1).blk t).view.emb (ix2 k (⟨(j 1).val, hj1⟩ : Fin 8))) = V c main_arg5 (ix2 k (⟨(j 1).val, hj1⟩ : Fin 8))
    refine congrArg (V c main_arg5) (funext fun a => Fin.ext ?_)
    match a with
    | ⟨0, _⟩ => show win2_1.index t (0 : Fin 2) * 8192 + 1 * k.val = k.val; omega
    | ⟨1, _⟩ => show win2_1.index t (1 : Fin 2) * 8 + 1 * (j 1).val = (j 1).val; omega
  · show V c main_v3 (((cfg2.win 2).blk t).view.emb (ix2 (⟨(j 0).val, hj0⟩ : Fin 1) (⟨(j 1).val, hj1⟩ : Fin 8)))
      = V c main_v3 (ix2 (⟨(j 0).val, hj0⟩ : Fin 1) (⟨(j 1).val, hj1⟩ : Fin 8))
    refine congrArg (V c main_v3) (funext fun a => Fin.ext ?_)
    match a with
    | ⟨0, _⟩ => show win2_2.index t (0 : Fin 2) * 1 + 1 * (j 0).val = (j 0).val; omega
    | ⟨1, _⟩ => show win2_2.index t (1 : Fin 2) * 8 + 1 * (j 1).val = (j 1).val; omega

/-- An index of the output array is in the point's block iff each coordinate is in the block's range on its axis. -/
theorem in_block (t : Fin cfg2.N) (i : S1x8.Idx) :
    i ∈ ((cfg2.win 3).blk t).view.set ↔ ∀ a : Fin 2, win2_3.index t a * S1x8.size a ≤ (i a).val ∧ (i a).val < win2_3.index t a * S1x8.size a + S1x8.size a := by
  show i ∈ ((View.whole main_v6).slice (win2_3.rect t)).set ↔ _
  rw [View.set_slice_whole, Rect.mem_set_unit]
  exact Iff.rfl

/-- The one block is the whole output array. -/
theorem covered (i : S1x8.Idx) : ∃ t : Fin cfg2.N, (cfg2.win 3).flush t = true ∧ i ∈ ((cfg2.win 3).blk t).view.set := by
  have hi0 : (i 0).val < 1 := (i 0).isLt
  have hi1 : (i 1).val < 8 := (i 1).isLt
  obtain ⟨t, ht⟩ := block_of
  have q0 : win2_3.index t (0 : Fin 2) = 0 := congrFun ht 0
  have q1 : win2_3.index t (1 : Fin 2) = 0 := congrFun ht 1
  refine ⟨t, flush2_3 t, ?_⟩
  rw [in_block]
  intro a
  match a with
  | ⟨0, _⟩ => show win2_3.index t (0 : Fin 2) * 1 ≤ (i 0).val ∧ (i 0).val < win2_3.index t (0 : Fin 2) * 1 + 1; omega
  | ⟨1, _⟩ => show win2_3.index t (1 : Fin 2) * 8 ≤ (i 1).val ∧ (i 1).val < win2_3.index t (1 : Fin 2) * 8 + 8; omega

/-- After the launch the output array is the layer of the arrays as the launch finds them. -/
theorem final (c : Dev nD) :
    (dat2 V c).arrAt 3 cfg2.N = layer (V c main_v5) (V c main_arg5) (V c main_v3) :=
  (dat2 V c).arrAt_eq_of_cover 3 (layer (V c main_v5) (V c main_arg5) (V c main_v3))
    (fun t _ => written V c t) (covered)

end Cert.KernelIdeal.OutputLayer

end
-- ==== Proof.Network.lean ====
/-
  The three launches chained: the third launch's output row as the three layers of the arguments.

  Before the first launch the host reshapes the board [42] to the row [1, 42] and each bias vector [N] to the row
  [1, N]; no other operation and no launch writes an argument array or one of those rows.  So the first launch is
  entered with the reshaped board, W1 and the reshaped b1, and leaves the first hidden layer of them; the second is
  entered with that row, W2 and the reshaped b2; the third with the second hidden row, W3 and the reshaped b3.
  Reading the contents at each boundary back to the launch memory gives the output row as
  outputs (hidden2 (hidden1 x W1 b1) W2 b2) W3 b3 of the arguments, each bias as a reshaped row.
-/
import proofs.«150059_j5755256177435_1_alg».proof.Proof.FirstLayer
import proofs.«150059_j5755256177435_1_alg».proof.Proof.SecondLayer
import proofs.«150059_j5755256177435_1_alg».proof.Proof.OutputLayer

set_option maxRecDepth 16384

noncomputable section

namespace Cert.KernelIdeal.Network

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## What the first launch is entered with -/

theorem board_row (c : Dev nD) :
    W1 m ρ c (Proc.devRef .tc main_v0) = shapeCast _ (m ((c : Thread nD τ).loc main_arg0)) shapeCasts_S42_S1x42 := by
  dsimp only [W1, hostOps0]; after_results; all_goals rfl
theorem bias1_row (c : Dev nD) :
    W1 m ρ c (Proc.devRef .tc main_v1) = shapeCast _ (m ((c : Thread nD τ).loc main_arg2)) shapeCasts_S8192_S1x8192 := by
  dsimp only [W1, hostOps0]; after_results; all_goals rfl
theorem bias2_row (c : Dev nD) :
    W1 m ρ c (Proc.devRef .tc main_v2) = shapeCast _ (m ((c : Thread nD τ).loc main_arg4)) shapeCasts_S8192_S1x8192 := by
  dsimp only [W1, hostOps0]; after_results; all_goals rfl
theorem bias3_row (c : Dev nD) :
    W1 m ρ c (Proc.devRef .tc main_v3) = shapeCast _ (m ((c : Thread nD τ).loc main_arg6)) shapeCasts_S8_S1x8 := by
  dsimp only [W1, hostOps0]; after_results; all_goals rfl
theorem board_kept (c : Dev nD) : W1 m ρ c (Proc.devRef .tc main_arg0) = m ((c : Thread nD τ).loc main_arg0) := by
  dsimp only [W1, hostOps0]; after_results; all_goals rfl
theorem w1_kept (c : Dev nD) : W1 m ρ c (Proc.devRef .tc main_arg1) = m ((c : Thread nD τ).loc main_arg1) := by
  dsimp only [W1, hostOps0]; after_results; all_goals rfl
theorem w2_kept (c : Dev nD) : W1 m ρ c (Proc.devRef .tc main_arg3) = m ((c : Thread nD τ).loc main_arg3) := by
  dsimp only [W1, hostOps0]; after_results; all_goals rfl
theorem w3_kept (c : Dev nD) : W1 m ρ c (Proc.devRef .tc main_arg5) = m ((c : Thread nD τ).loc main_arg5) := by
  dsimp only [W1, hostOps0]; after_results; all_goals rfl

/-! ## The three layers, each from the contents its launch is entered with -/

/-- After the first launch its output array is the first hidden layer of the reshaped board, W1 and the reshaped b1. -/
theorem hidden1_at (c : Dev nD) :
    W2 m ρ c (Proc.devRef .tc main_v4)
      = FirstLayer.layer (shapeCast _ (m ((c : Thread nD τ).loc main_arg0)) shapeCasts_S42_S1x42) (m ((c : Thread nD τ).loc main_arg1))
          (shapeCast _ (m ((c : Thread nD τ).loc main_arg2)) shapeCasts_S8192_S1x8192) := by
  rw [← board_row m ρ c, ← w1_kept m ρ c, ← bias1_row m ρ c]
  exact (W2_arr m ρ c 3).trans (FirstLayer.final (V1 m ρ) c)

/-- After the second launch its output array is the second hidden layer of the first, W2 and the reshaped b2. -/
theorem hidden2_at (c : Dev nD) :
    W3 m ρ c (Proc.devRef .tc main_v5)
      = SecondLayer.layer (W2 m ρ c (Proc.devRef .tc main_v4)) (m ((c : Thread nD τ).loc main_arg3))
          (shapeCast _ (m ((c : Thread nD τ).loc main_arg4)) shapeCasts_S8192_S1x8192) := by
  rw [← w2_kept m ρ c, ← bias2_row m ρ c, ← W2_of_ne m ρ c main_arg3 (by decide), ← W2_of_ne m ρ c main_v2 (by decide)]
  exact (W3_arr m ρ c 3).trans (SecondLayer.final (V2 m ρ) c)

/-- After the third launch its output array is the output layer of the second hidden row, W3 and the reshaped b3. -/
theorem outputs_at (c : Dev nD) :
    W4 m ρ c (Proc.devRef .tc main_v6)
      = OutputLayer.layer (W3 m ρ c (Proc.devRef .tc main_v5)) (m ((c : Thread nD τ).loc main_arg5))
          (shapeCast _ (m ((c : Thread nD τ).loc main_arg6)) shapeCasts_S8_S1x8) := by
  rw [← w3_kept m ρ c, ← bias3_row m ρ c, ← W2_of_ne m ρ c main_arg5 (by decide), ← W2_of_ne m ρ c main_v3 (by decide),
    ← W3_of_ne m ρ c main_arg5 (by decide), ← W3_of_ne m ρ c main_v3 (by decide)]
  exact (W4_arr m ρ c 3).trans (OutputLayer.final (V3 m ρ) c)

/-- The board is as launched when the third launch is over. -/
theorem board_at (c : Dev nD) : W4 m ρ c (Proc.devRef .tc main_arg0) = m ((c : Thread nD τ).loc main_arg0) :=
  (W4_of_ne m ρ c main_arg0 (by decide)).trans ((W3_of_ne m ρ c main_arg0 (by decide)).trans
    ((W2_of_ne m ρ c main_arg0 (by decide)).trans (board_kept m ρ c)))

end Cert.KernelIdeal.Network

end
-- ==== Proof.Heads.lean ====
/-
  The two heads computed on the host after the three launches.

  From the row of eight outputs the program returns (i) the value: output 7, as a vector of one entry; and (ii) the
  move distribution: with `legal` the mask "cell i of the top row of the board is empty" (state i = 0, i < 7), the
  first seven outputs are masked to −∞ where a move is illegal, passed through a softmax (subtract the maximum,
  exponentiate, divide by the sum), and zeroed again where illegal, as a column of seven entries.
  These are named here as functions of the board and of the output row, and read off the host operations that
  follow the third launch, one stretch of operations at a time; nothing is evaluated or simplified, so the same
  functions describe the reference's last operations word for word.
-/
import proofs.«150059_j5755256177435_1_alg».proof.Proof.Gen.KernelIdeal.Frame

set_option maxRecDepth 16384

noncomputable section

namespace Cert.KernelIdeal.Heads

open Cert.KernelIdeal Cert.KernelIdeal.Gen
open Idealize.ShloMosaic Idealize.ShloMosaic.TcCoe Idealize.ShloMosaic.StableHlo
open Idealize.SL Idealize.SL.Sem

variable {F : FTy → Type} [FloatOps F]

section Functions

/-- The value head: the last of the eight outputs, as a vector of one entry. -/
def valueOf (pen : (⟨S1x8, .f32⟩ : BufTy).Contents (Elt F)) : (⟨S1, .f32⟩ : BufTy).Contents (Elt F) :=
  shapeCast _ (extractStridedSlice S1x1 ![0, 7] pen slices_S1x8_S1x1_0_7) shapeCasts_S1x1_S1

/-- The legal moves: the first seven cells of the board that are zero. -/
def legalOf (state : (⟨S42, .f32⟩ : BufTy).Contents (Elt F)) : (⟨S7, .i1⟩ : BufTy).Contents (Elt F) :=
  cmpf .oeq (extractStridedSlice S7 ![0] state slices_S42_S7_0) (broadcastInDim S7 ![] bcast_S_S7 (constant S_ .f32 0x00000000#32))

/-- The seven move logits: the first seven outputs, as a vector. -/
def logitsOf (pen : (⟨S1x8, .f32⟩ : BufTy).Contents (Elt F)) : (⟨S7, .f32⟩ : BufTy).Contents (Elt F) :=
  shapeCast _ (extractStridedSlice S1x7 ![0, 0] pen slices_S1x8_S1x7_0_0) shapeCasts_S1x7_S7

/-- The logits with −∞ at the illegal moves. -/
def maskedOf (legal : (⟨S7, .i1⟩ : BufTy).Contents (Elt F)) (logits : (⟨S7, .f32⟩ : BufTy).Contents (Elt F)) :
    (⟨S7, .f32⟩ : BufTy).Contents (Elt F) :=
  select legal logits (broadcastInDim S7 ![] bcast_S_S7 (id (constant S_ .f32 0xFF800000#32)))

/-- The softmax of seven entries as jax lowers it: the maximum (from −∞, and once more against −∞), the
    exponentials of the differences, their sum from zero, the quotients. -/
def softmaxOf (x : (⟨S7, .f32⟩ : BufTy).Contents (Elt F)) : (⟨S7, .f32⟩ : BufTy).Contents (Elt F) :=
  let mx : (⟨S_, .f32⟩ : BufTy).Contents (Elt F) :=
    maximumf (constant S_ .f32 0xFF800000#32) (Host.reduce FloatOps.maximumf x (constant S_ .f32 0xFF800000#32) reducesTo_S7_S_d0 h_S_)
  let e : (⟨S7, .f32⟩ : BufTy).Contents (Elt F) :=
    Host.exp (subf x (broadcastInDim S7 ![0] bcast_S1_S7_0 (broadcastInDim S1 ![] bcast_S_S1 mx)))
  let s : (⟨S_, .f32⟩ : BufTy).Contents (Elt F) := Host.reduceAdd e (constant S_ .f32 0x00000000#32) reducesTo_S7_S_d0 h_S_
  Host.divf e (broadcastInDim S7 ![0] bcast_S1_S7_0 (broadcastInDim S1 ![] bcast_S_S1 s))

/-- The probabilities with zero at the illegal moves, as a column of seven entries. -/
def scatterOf (legal : (⟨S7, .i1⟩ : BufTy).Contents (Elt F)) (p : (⟨S7, .f32⟩ : BufTy).Contents (Elt F)) :
    (⟨S7x1, .f32⟩ : BufTy).Contents (Elt F) :=
  shapeCast _ (select legal p (broadcastInDim S7 ![] bcast_S_S7 (id (constant S_ .f32 0x00000000#32)))) shapeCasts_S7_S7x1

/-- The move distribution from the board and the row of eight outputs. -/
def policyOf (state : (⟨S42, .f32⟩ : BufTy).Contents (Elt F)) (pen : (⟨S1x8, .f32⟩ : BufTy).Contents (Elt F)) :
    (⟨S7x1, .f32⟩ : BufTy).Contents (Elt F) :=
  scatterOf (legalOf state) (softmaxOf (maskedOf (legalOf state) (logitsOf pen)))

end Functions

variable (m : (ℓ : Loc nD τ sig) → Buf (Elt F) ℓ) (ρ : Dev nD → PrngReg)

/-- The value result, at the end, is the value head of the third launch's output row. -/
theorem value_at (c : Dev nD) :
    W9 m ρ c (Proc.devRef .tc main_v8) = valueOf (W4 m ρ c (Proc.devRef .tc main_v6)) := by
  dsimp only [W9, W8, W7, W6, W5, hostOps3, hostOps3_1, hostOps3_2, hostOps3_3, hostOps3_4]
  after_results
  rfl

/-! The distribution result, one stretch of host operations at a time. -/

theorem legal_at (c : Dev nD) :
    W5 m ρ c (Proc.devRef .tc main_v11) = legalOf (W4 m ρ c (Proc.devRef .tc main_arg0)) := by
  dsimp only [W5, hostOps3]; after_results; rfl

theorem logits_at (c : Dev nD) :
    W5 m ρ c (Proc.devRef .tc main_v13) = logitsOf (W4 m ρ c (Proc.devRef .tc main_v6)) := by
  dsimp only [W5, hostOps3]; after_results; rfl

theorem masked_at (c : Dev nD) :
    W6 m ρ c (Proc.devRef .tc main_v14)
      = maskedOf (legalOf (W4 m ρ c (Proc.devRef .tc main_arg0))) (logitsOf (W4 m ρ c (Proc.devRef .tc main_v6))) := by
  rw [← legal_at, ← logits_at]
  dsimp only [W6, W5, hostOps3_1, hostOps3]; after_results; all_goals rfl

theorem legal_kept (c : Dev nD) :
    W7 m ρ c (Proc.devRef .tc main_v11) = legalOf (W4 m ρ c (Proc.devRef .tc main_arg0)) := by
  rw [← legal_at]
  calc W7 m ρ c (Proc.devRef .tc main_v11)
    _ = W6 m ρ c (Proc.devRef .tc main_v11) := StableHlo.after_of_forall_not_mem (b := Proc.devRef .tc main_v11) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := StableHlo.after_of_forall_not_mem (b := Proc.devRef .tc main_v11) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 2000000 in
theorem softmax_at (c : Dev nD) :
    W7 m ρ c (Proc.devRef .tc main_v24) = softmaxOf (W6 m ρ c (Proc.devRef .tc main_v14)) := by
  dsimp only [W7, hostOps3_2]
  generalize W6 m ρ c = Z
  after_results_simp <;> rfl

/-- The zero the illegal moves are reset to is the constant the previous stretch wrote. -/
theorem zero_at (c : Dev nD) : W7 m ρ c (Proc.devRef .tc main_cst_4) = constant S_ .f32 0x00000000#32 := by
  dsimp only [W7, hostOps3_2]
  generalize W6 m ρ c = Z
  after_results; all_goals rfl

/-- The distribution result, at the end, is the policy head of the board and of the third launch's output row. -/
theorem policy_at (c : Dev nD) :
    W9 m ρ c (Proc.devRef .tc main_v26)
      = policyOf (W4 m ρ c (Proc.devRef .tc main_arg0)) (W4 m ρ c (Proc.devRef .tc main_v6)) := by
  unfold policyOf scatterOf
  rw [← masked_at, ← softmax_at, ← legal_kept, ← zero_at m ρ c]
  dsimp only [W9, W8, hostOps3_4, hostOps3_3]
  generalize W7 m ρ c = Z
  after_results; all_goals rfl

end Cert.KernelIdeal.Heads

end
-- ==== Proof.ProgramRun.lean ====
/-
  The idealized kernel program is three kernel launches between stretches of host operations. Its run, from any
  launch memory: every weakly fair execution terminates without a fault, and at the end each of the two result
  buffers holds what the last segment boundary's contents give it — the fold of the host operations and of the
  three launches' write-backs over the launch memory — while the seven argument arrays are as launched.
  The three layers' values and the host operations after them are read off that fold in the modules that follow.
-/
import proofs.«150059_j5755256177435_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the value result and the distribution
    result end at the last boundary's contents, and the arguments end as launched. The segments, their thread
    states and the boundary contents are the frame's; only the final reading differs: it keeps the two result
    buffers beside the arguments. -/
theorem run_results : θ_run defs (onTc (τ := τ) (main (F := F))) ⟨m, fun _ => 0, ρ⟩ (fun r => ∀ c : Dev nD,
      r.2.mem ((c.tc : Thread nD τ).loc main_v8) = W9 m ρ c (Proc.devRef .tc main_v8)
      ∧ r.2.mem ((c.tc : Thread nD τ).loc main_v26) = W9 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v8 (by decide)),
       h c _ (mem_uc main_v26 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Whole

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibRowForms.lean ====
/-
  A vector laid out as a row in two ways.

  A vector [C] becomes the row [1, C] either by a reshape or by a broadcast onto axis 1: both read, at (0, c),
  the vector at c, so they are the same row.
-/
import proofs.«150059_j5755256177435_1_alg».proof.Proof.LibRows

noncomputable section

namespace Cert.Lib.RowForms

open Idealize.ShloMosaic Idealize.ShloMosaic.ValueIdx

variable {α : Type}

/-- A vector [C] broadcast onto axis 1 of [1, C] is the vector reshaped to [1, C]. -/
theorem broadcastInDim_row_eq_shapeCast {C : Nat} (b : (⟨1, ![C]⟩ : Shape).Idx → α)
    (hb : (⟨1, ![C]⟩ : Shape).BroadcastsInDim ⟨2, ![1, C]⟩ (![1] : Fin 1 → Fin 2))
    (hs : (⟨1, ![C]⟩ : Shape).ShapeCasts ⟨2, ![1, C]⟩) :
    broadcastInDim ⟨2, ![1, C]⟩ (![1] : Fin 1 → Fin 2) hb b = shapeCast ⟨2, ![1, C]⟩ b hs := by
  funext j
  obtain ⟨p, q, rfl⟩ : ∃ (p : Fin 1) (q : Fin C), j = ix2 p q := ⟨j 0, j 1, eq_ix2 j⟩
  obtain rfl : p = 0 := Subsingleton.elim _ _
  rw [Cert.Lib.Rows.shapeCast_vec_row_apply]
  refine broadcastInDim_apply (![1] : Fin 1 → Fin 2) hb b (ix2 0 q) (ix1 q) (fun a => ?_)
  match a with
  | ⟨0, _⟩ =>
    show q.val = if C = 1 then 0 else q.val
    by_cases hC : C = 1
    · rw [if_pos hC]; have := q.isLt; omega
    · rw [if_neg hC]

end Cert.Lib.RowForms

end
-- ==== Proof.Same.lean ====
/-
  The two programs compute one function of the arguments.

  The reference's output row is outputs (hidden2 (hidden1 x W1 b1) W2 b2) W3 b3 with x the board reshaped to a row and
  each bias vector [N] broadcast onto axis 1 of [1, N]; the kernel program's is the same expression with each bias
  reshaped to [1, N].  A vector broadcast onto axis 1 of a one-row matrix IS the vector reshaped to that row, so the
  two output rows are equal.  The reference's two results are then the value head and the policy head of that row
  (and of the board), word for word the functions the kernel program's host operations apply: so both programs'
  results are the reference's result terms of the arguments.
-/
import proofs.«150059_j5755256177435_1_alg».proof.Proof.Network
import proofs.«150059_j5755256177435_1_alg».proof.Proof.Heads
import proofs.«150059_j5755256177435_1_alg».proof.Proof.ProgramRun
import proofs.«150059_j5755256177435_1_alg».proof.Proof.LibRowForms
import proofs.«150059_j5755256177435_1_alg».proof.Proof.Gen.ReferenceIdeal.Read

set_option maxRecDepth 16384

noncomputable section

namespace Cert.Same

open Idealize.ShloMosaic Idealize.ShloMosaic.TcCoe Idealize.SL Idealize.SL.Sem

/-! ## The reference's stages, as the layers and the heads -/

section Reference

open Cert.ReferenceIdeal Cert.ReferenceIdeal.Gen Cert.ReferenceIdeal.Read

variable (x0 : (⟨S42, .f32⟩ : BufTy).Contents (Elt Ideal)) (x1 : (⟨S42x8192, .f32⟩ : BufTy).Contents (Elt Ideal))
  (x2 : (⟨S8192, .f32⟩ : BufTy).Contents (Elt Ideal)) (x3 : (⟨S8192x8192, .f32⟩ : BufTy).Contents (Elt Ideal))
  (x4 : (⟨S8192, .f32⟩ : BufTy).Contents (Elt Ideal)) (x5 : (⟨S8192x8, .f32⟩ : BufTy).Contents (Elt Ideal))
  (x6 : (⟨S8, .f32⟩ : BufTy).Contents (Elt Ideal))

/-- The reference's output row is the three layers of the arguments, each bias broadcast onto axis 1 of a row. -/
theorem ref_row : val_main_v11 (F := Ideal) x0 x1 x2 x3 x4 x5 x6
    = Cert.Layers.outputs (F := Ideal) (Cert.Layers.hidden2 (F := Ideal) (Cert.Layers.hidden1 (F := Ideal) (shapeCast _ x0 shapeCasts_S42_S1x42) x1
        (broadcastInDim S1x8192 ![1] bcast_S8192_S1x8192_1 x2)) x3 (broadcastInDim S1x8192 ![1] bcast_S8192_S1x8192_1 x4)) x5
        (broadcastInDim S1x8 ![1] bcast_S8_S1x8_1 x6) := rfl

/-- The reference's first result is the value head of its output row. -/
theorem ref_value : val_main_v13 (F := Ideal) x0 x1 x2 x3 x4 x5 x6
    = Cert.KernelIdeal.Heads.valueOf (F := Ideal) (val_main_v11 (F := Ideal) x0 x1 x2 x3 x4 x5 x6) := rfl

/-- The reference's second result is the policy head of the board and of its output row. -/
theorem ref_policy : val_main_v31 (F := Ideal) x0 x1 x2 x3 x4 x5 x6
    = Cert.KernelIdeal.Heads.policyOf (F := Ideal) x0 (val_main_v11 (F := Ideal) x0 x1 x2 x3 x4 x5 x6) := rfl

end Reference

/-! ## The kernel program's results are the reference's result terms -/

section Kernel

open Cert.KernelIdeal Cert.KernelIdeal.Gen

variable (m : (ℓ : Loc nD τ sig) → Buf (Elt Ideal) ℓ) (ρ : Dev nD → PrngReg)

/-- The third launch's output row is the reference's output row of the arguments: the same three layers, a bias
    reshaped to a row being the bias broadcast onto axis 1 of the row. -/
theorem rows_agree (c : Dev nD) :
    W4 m ρ c (Proc.devRef .tc main_v6) = Cert.ReferenceIdeal.Read.val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [ref_row, Network.outputs_at, Network.hidden2_at, Network.hidden1_at,
    Cert.Lib.RowForms.broadcastInDim_row_eq_shapeCast (C := 8192) (m ((c : Thread nD τ).loc main_arg2)) Cert.ReferenceIdeal.Gen.bcast_S8192_S1x8192_1 shapeCasts_S8192_S1x8192,
    Cert.Lib.RowForms.broadcastInDim_row_eq_shapeCast (C := 8192) (m ((c : Thread nD τ).loc main_arg4)) Cert.ReferenceIdeal.Gen.bcast_S8192_S1x8192_1 shapeCasts_S8192_S1x8192,
    Cert.Lib.RowForms.broadcastInDim_row_eq_shapeCast (C := 8) (m ((c : Thread nD τ).loc main_arg6)) Cert.ReferenceIdeal.Gen.bcast_S8_S1x8_1 shapeCasts_S8_S1x8]

/-- The value result is the reference's first result term of the arguments. -/
theorem value_eq (c : Dev nD) :
    W9 m ρ c (Proc.devRef .tc main_v8) = Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Heads.value_at, rows_agree]
  exact (ref_value _ _ _ _ _ _ _).symm

/-- The distribution result is the reference's second result term of the arguments. -/
theorem policy_eq (c : Dev nD) :
    W9 m ρ c (Proc.devRef .tc main_v26) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Heads.policy_at, rows_agree, Network.board_at]
  exact (ref_policy _ _ _ _ _ _ _).symm

/-- The idealized kernel program's run: its two results end at the reference's result terms of the arguments, the
    arguments as launched. -/
theorem run : θ_run defs (onTc (τ := τ) (main (F := Ideal))) ⟨m, fun _ => 0, ρ⟩ (fun r => ∀ c : Dev nD,
      r.2.mem ((c.tc : Thread nD τ).loc main_v8) = Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v26) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (value_eq m ρ c), (h c).2.1.trans (policy_eq m ρ c), (h c).2.2⟩)
    (Whole.run_results m ρ)

end Kernel

end Cert.Same

end
-- ==== Proof.lean ====
/-
  The certificate's claims for a three-layer network on one row with a value head and a masked-softmax policy head.

  Both programs compute  pen = max (max (x·W1 + b1, 0)·W2 + b2, 0)·W3 + b3  from the board x and return pen's last
  entry and the softmax of its first seven entries masked by the board's legal moves.  The kernel program computes the
  three layers in three kernel launches — the second tiled over 32 blocks of 256 output columns, the contraction
  never blocked — with bf16 operands on the matrix unit; the reference uses the host's matrix product.  At the ideal
  values a change of float format is the identity and both products are the same sum over the contraction index, a
  bias reshaped to a row is the bias broadcast to that row, and the host operations after the layers are the same
  in both programs: the results are equal as extended reals, and the precondition is never opened.
  The three frames are the generated ones (the reference's is its generated run with the results dropped); the ideal
  pass rewrote nothing, so the idealization claim is trivial.
-/
import proofs.«150059_j5755256177435_1_alg».proof.Defs
import proofs.«150059_j5755256177435_1_alg».proof.Proof.Gen.Kernel
import proofs.«150059_j5755256177435_1_alg».proof.Proof.Gen.Kernel.Skeleton
import proofs.«150059_j5755256177435_1_alg».proof.Proof.Gen.Kernel.Launch
import proofs.«150059_j5755256177435_1_alg».proof.Proof.Gen.Kernel.Points
import proofs.«150059_j5755256177435_1_alg».proof.Proof.Gen.Kernel.Frame
import proofs.«150059_j5755256177435_1_alg».proof.Proof.Gen.KernelIdeal
import proofs.«150059_j5755256177435_1_alg».proof.Proof.Gen.KernelIdeal.Skeleton
import proofs.«150059_j5755256177435_1_alg».proof.Proof.Gen.KernelIdeal.Launch
import proofs.«150059_j5755256177435_1_alg».proof.Proof.Gen.KernelIdeal.Points
import proofs.«150059_j5755256177435_1_alg».proof.Proof.Gen.KernelIdeal.Frame
import proofs.«150059_j5755256177435_1_alg».proof.Proof.Gen.ReferenceIdeal
import proofs.«150059_j5755256177435_1_alg».proof.Proof.Gen.ReferenceIdeal.Run
import proofs.«150059_j5755256177435_1_alg».proof.Proof.Gen.ReferenceIdeal.Read
import proofs.«150059_j5755256177435_1_alg».proof.Proof.Gen.Pre_finite_inputs
import proofs.«150059_j5755256177435_1_alg».proof.Proof.Same
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with their results at the reference's result terms
    of those arguments. -/
theorem algebraic : Cert.algebraic_KernelIdeal_ReferenceIdeal := by
  intro m ρ m' ρ' _ hagree
  refine ⟨_, _, Cert.Same.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v13_eq _ _ _ _ _ _ _).trans ?_)
    rw [(hagree c).1, (hagree c).2.1, (hagree c).2.2.1, (hagree c).2.2.2.1, (hagree c).2.2.2.2.1, (hagree c).2.2.2.2.2.1,
      (hagree c).2.2.2.2.2.2]
  · refine (h c).2.1.trans ((Cert.ReferenceIdeal.Read.val_main_v31_eq m' c).trans ?_)
    rw [(hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
